-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x80000x1 : Shape := ⟨3, ![8, 80000, 1]⟩
abbrev S8000000 : Shape := ⟨1, ![8000000]⟩
abbrev S80000 : Shape := ⟨1, ![80000]⟩
abbrev S_ : Shape := ⟨0, ![]⟩

class Facts : Prop where
  bcast_S_S8x80000x1 : S_.BroadcastsInDim S8x80000x1 (![] : Fin 0 → Fin S8x80000x1.rank)
  reducesTo_S8x80000x1_S_d0_1_2 : S8x80000x1.ReducesTo [0, 1, 2] S_
  h_S_ : 0 < S_.numel
  bcast_S_S8000000 : S_.BroadcastsInDim S8000000 (![] : Fin 0 → Fin S8000000.rank)
  reducesTo_S8000000_S_d0 : S8000000.ReducesTo [0] S_
  bcast_S_S80000 : S_.BroadcastsInDim S80000 (![] : Fin 0 → Fin S80000.rank)
  reducesTo_S80000_S_d0 : S80000.ReducesTo [0] S_

variable [Facts]

def fn_part1 {F : FTy → Type} [FloatOps F] (main_arg4 : FVec F S80000 .f32) (main_arg5 : FVec F S8000000 .f32) (main_arg6 : FVec F S80000 .f32) (main_v13 : IVec S_ 1) (main_v16 : IVec S80000 1) : IVec S_ 1 :=
  let main_c_5 : IVec S_ 1 := constantI S_ 1 1#1
  let main_v17 : IVec S_ 1 := (fun x v => Host.reduce IntOp.andi x v reducesTo_S80000_S_d0 h_S_) main_v16 main_c_5
  let main_v18 : IVec S_ 1 := andi main_v13 main_v17
  let main_v19 : FVec F S80000 .f32 := Host.absf main_arg4
  let main_cst_6 : FVec F S_ .f32 := constant S_ .f32 0x7F800000#32
  let main_v20 : FVec F S80000 .f32 := broadcastInDim S80000 ![] bcast_S_S80000 main_cst_6
  let main_v21 : IVec S80000 1 := cmpf .olt main_v19 main_v20
  let main_c_7 : IVec S_ 1 := constantI S_ 1 1#1
  let main_v22 : IVec S_ 1 := (fun x v => Host.reduce IntOp.andi x v reducesTo_S80000_S_d0 h_S_) main_v21 main_c_7
  let main_v23 : IVec S_ 1 := andi main_v18 main_v22
  let main_v24 : FVec F S8000000 .f32 := Host.absf main_arg5
  let main_cst_8 : FVec F S_ .f32 := constant S_ .f32 0x7F800000#32
  let main_v25 : FVec F S8000000 .f32 := broadcastInDim S8000000 ![] bcast_S_S8000000 main_cst_8
  let main_v26 : IVec S8000000 1 := cmpf .olt main_v24 main_v25
  let main_c_9 : IVec S_ 1 := constantI S_ 1 1#1
  let main_v27 : IVec S_ 1 := (fun x v => Host.reduce IntOp.andi x v reducesTo_S8000000_S_d0 h_S_) main_v26 main_c_9
  let main_v28 : IVec S_ 1 := andi main_v23 main_v27
  let main_v29 : FVec F S80000 .f32 := Host.absf main_arg6
  let main_cst_10 : FVec F S_ .f32 := constant S_ .f32 0x7F800000#32
  let main_v30 : FVec F S80000 .f32 := broadcastInDim S80000 ![] bcast_S_S80000 main_cst_10
  let main_v31 : IVec S80000 1 := cmpf .olt main_v29 main_v30
  let main_c_11 : IVec S_ 1 := constantI S_ 1 1#1
  let main_v32 : IVec S_ 1 := (fun x v => Host.reduce IntOp.andi x v reducesTo_S80000_S_d0 h_S_) main_v31 main_c_11
  let main_v33 : IVec S_ 1 := andi main_v28 main_v32
  main_v33

def fn {F : FTy → Type} [FloatOps F] (main_arg0 : FVec F S8x80000x1 .f32) (main_arg1 : FVec F S8000000 .f32) (main_arg2 : FVec F S8000000 .f32) (main_arg3 : FVec F S80000 .f32) (main_arg4 : FVec F S80000 .f32) (main_arg5 : FVec F S8000000 .f32) (main_arg6 : FVec F S80000 .f32) (main_arg7 : IVec S8000000 32) (main_arg8 : IVec S8000000 32) : IVec S_ 1 :=
  let main_v0 : FVec F S8x80000x1 .f32 := Host.absf main_arg0
  let main_cst : FVec F S_ .f32 := constant S_ .f32 0x7F800000#32
  let main_v1 : FVec F S8x80000x1 .f32 := broadcastInDim S8x80000x1 ![] bcast_S_S8x80000x1 main_cst
  let main_v2 : IVec S8x80000x1 1 := cmpf .olt main_v0 main_v1
  let main_c : IVec S_ 1 := constantI S_ 1 1#1
  let main_v3 : IVec S_ 1 := (fun x v => Host.reduce IntOp.andi x v reducesTo_S8x80000x1_S_d0_1_2 h_S_) main_v2 main_c
  let main_v4 : FVec F S8000000 .f32 := Host.absf main_arg1
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S8000000 .f32 := Host.absf main_arg2
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  let main_v14 : FVec F S80000 .f32 := Host.absf main_arg3
  let main_cst_4 : FVec F S_ .f32 := constant S_ .f32 0x7F800000#32
  let main_v15 : FVec F S80000 .f32 := broadcastInDim S80000 ![] bcast_S_S80000 main_cst_4
  let main_v16 : IVec S80000 1 := cmpf .olt main_v14 main_v15
  fn_part1 (F := F) main_arg4 main_arg5 main_arg6 main_v13 main_v16
-- ==== Kernel.lean ====
abbrev S8x80000x1 : Shape := ⟨3, ![8, 80000, 1]⟩
abbrev S8000000 : Shape := ⟨1, ![8000000]⟩
abbrev S80000 : Shape := ⟨1, ![80000]⟩
abbrev S512x15625 : Shape := ⟨2, ![512, 15625]⟩
abbrev S64x15625 : Shape := ⟨2, ![64, 15625]⟩
abbrev S8x80000 : Shape := ⟨2, ![8, 80000]⟩
abbrev S80000x8 : Shape := ⟨2, ![80000, 8]⟩
abbrev S_ : Shape := ⟨0, ![]⟩
abbrev S8000000x1 : Shape := ⟨2, ![8000000, 1]⟩
abbrev S8000000x8 : Shape := ⟨2, ![8000000, 8]⟩
abbrev S1x80000 : Shape := ⟨2, ![1, 80000]⟩
abbrev S8x16000 : Shape := ⟨2, ![8, 16000]⟩
abbrev S1x16000 : Shape := ⟨2, ![1, 16000]⟩

abbrev nBuf : Space → Nat
  | .hbm => 43
  | .vmem => 18
  | .smem => 0
  | _ => 0

abbrev bufTy : (tb : Table) → Fin (tcTables nBuf tb) → BufTy
  | .hbm, ⟨0, _⟩ => ⟨S8x80000x1, .f32⟩
  | .hbm, ⟨1, _⟩ => ⟨S8000000, .f32⟩
  | .hbm, ⟨2, _⟩ => ⟨S8000000, .f32⟩
  | .hbm, ⟨3, _⟩ => ⟨S80000, .f32⟩
  | .hbm, ⟨4, _⟩ => ⟨S80000, .f32⟩
  | .hbm, ⟨5, _⟩ => ⟨S8000000, .f32⟩
  | .hbm, ⟨6, _⟩ => ⟨S80000, .f32⟩
  | .hbm, ⟨7, _⟩ => ⟨S8000000, .i32⟩
  | .hbm, ⟨8, _⟩ => ⟨S8000000, .i32⟩
  | .hbm, ⟨9, _⟩ => ⟨S512x15625, .f32⟩
  | .hbm, ⟨10, _⟩ => ⟨S512x15625, .f32⟩
  | .hbm, ⟨11, _⟩ => ⟨S512x15625, .f32⟩
  | .hbm, ⟨12, _⟩ => ⟨S512x15625, .f32⟩
  | .hbm, ⟨13, _⟩ => ⟨S8000000, .f32⟩
  | .hbm, ⟨14, _⟩ => ⟨S8x80000, .f32⟩
  | .hbm, ⟨15, _⟩ => ⟨S80000x8, .f32⟩
  | .hbm, ⟨16, _⟩ => ⟨S_, .i32⟩
  | .hbm, ⟨17, _⟩ => ⟨S8000000, .i32⟩
  | .hbm, ⟨18, _⟩ => ⟨S8000000, .i1⟩
  | .hbm, ⟨19, _⟩ => ⟨S_, .i32⟩
  | .hbm, ⟨20, _⟩ => ⟨S8000000, .i32⟩
  | .hbm, ⟨21, _⟩ => ⟨S8000000, .i32⟩
  | .hbm, ⟨22, _⟩ => ⟨S8000000, .i32⟩
  | .hbm, ⟨23, _⟩ => ⟨S8000000x1, .i32⟩
  | .hbm, ⟨24, _⟩ => ⟨S8000000x8, .f32⟩
  | .hbm, ⟨25, _⟩ => ⟨S8000000x1, .f32⟩
  | .hbm, ⟨26, _⟩ => ⟨S8000000x8, .f32⟩
  | .hbm, ⟨27, _⟩ => ⟨S8000000x8, .f32⟩
  | .hbm, ⟨28, _⟩ => ⟨S_, .f32⟩
  | .hbm, ⟨29, _⟩ => ⟨S80000x8, .f32⟩
  | .hbm, ⟨30, _⟩ => ⟨S8000000x1, .i32⟩
  | .hbm, ⟨31, _⟩ => ⟨S80000x8, .f32⟩
  | .hbm, ⟨32, _⟩ => ⟨S8x80000, .f32⟩
  | .hbm, ⟨33, _⟩ => ⟨S8x80000x1, .f32⟩
  | .hbm, ⟨34, _⟩ => ⟨S8x80000, .f32⟩
  | .hbm, ⟨35, _⟩ => ⟨S1x80000, .f32⟩
  | .hbm, ⟨36, _⟩ => ⟨S1x80000, .f32⟩
  | .hbm, ⟨37, _⟩ => ⟨S1x80000, .f32⟩
  | .hbm, ⟨38, _⟩ => ⟨S8x80000, .f32⟩
  | .hbm, ⟨39, _⟩ => ⟨S8x80000x1, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S64x15625, .f32⟩
  | .local _ .vmem, ⟨1, _⟩ => ⟨S64x15625, .f32⟩
  | .local _ .vmem, ⟨2, _⟩ => ⟨S64x15625, .f32⟩
  | .local _ .vmem, ⟨3, _⟩ => ⟨S64x15625, .f32⟩
  | .local _ .vmem, ⟨4, _⟩ => ⟨S64x15625, .f32⟩
  | .local _ .vmem, ⟨5, _⟩ => ⟨S64x15625, .f32⟩
  | .local _ .vmem, ⟨6, _⟩ => ⟨S64x15625, .f32⟩
  | .local _ .vmem, ⟨7, _⟩ => ⟨S64x15625, .f32⟩
  | .local _ .vmem, ⟨8, _⟩ => ⟨S8x16000, .f32⟩
  | .local _ .vmem, ⟨9, _⟩ => ⟨S8x16000, .f32⟩
  | .local _ .vmem, ⟨10, _⟩ => ⟨S1x16000, .f32⟩
  | .local _ .vmem, ⟨11, _⟩ => ⟨S1x16000, .f32⟩
  | .local _ .vmem, ⟨12, _⟩ => ⟨S1x16000, .f32⟩
  | .local _ .vmem, ⟨13, _⟩ => ⟨S1x16000, .f32⟩
  | .local _ .vmem, ⟨14, _⟩ => ⟨S1x16000, .f32⟩
  | .local _ .vmem, ⟨15, _⟩ => ⟨S1x16000, .f32⟩
  | .local _ .vmem, ⟨16, _⟩ => ⟨S8x16000, .f32⟩
  | .local _ .vmem, ⟨17, _⟩ => ⟨S8x16000, .f32⟩
  | _, _ => ⟨S8x80000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_cst_2 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x15625 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x15625 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x15625 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x15625 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x16000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x16000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8000000_S512x15625 : S8000000.ShapeCasts S512x15625
  inb_S64x15625_S64x15625_0_0 : ∀ a, (![0, 0] : Fin 2 → Nat) a + S64x15625.size a ≤ S64x15625.size a
  h_S64x15625 : 0 < S64x15625.numel
  shapeCasts_S64x15625_S64x15625 : S64x15625.ShapeCasts S64x15625
  shapeCasts_S512x15625_S8000000 : S512x15625.ShapeCasts S8000000
  shapeCasts_S8x80000x1_S8x80000 : S8x80000x1.ShapeCasts S8x80000
  transposes_S8x80000_S80000x8_1_0 : S8x80000.Transposes [1, 0] S80000x8
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S8000000x1_S8000000x8_0_1 : S8000000x1.BroadcastsInDim S8000000x8 (![0, 1] : Fin 2 → Fin S8000000x8.rank)
  bcast_S_S80000x8 : S_.BroadcastsInDim S80000x8 (![] : Fin 0 → Fin S80000x8.rank)
  transposes_S80000x8_S8x80000_1_0 : S80000x8.Transposes [1, 0] S8x80000
  bcast_S8x80000_S8x80000x1_0_1 : S8x80000.BroadcastsInDim S8x80000x1 (![0, 1] : Fin 2 → Fin S8x80000x1.rank)
  shapeCasts_S80000_S1x80000 : S80000.ShapeCasts S1x80000
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  inb_S8x16000_S8x16000_0_0 : ∀ a, (![0, 0] : Fin 2 → Nat) a + S8x16000.size a ≤ S8x16000.size a
  h_S8x16000 : 0 < S8x16000.numel
  shapeCasts_S8x16000_S8x16000 : S8x16000.ShapeCasts S8x16000
  broadcasts_S1x16000_S8x16000 : S1x16000.Broadcasts S8x16000
  shapeCasts_S8x80000_S8x80000x1 : S8x80000.ShapeCasts S8x80000x1
  gather_S80000x8_S8000000x1_S8000000x8_1_0_n_n_0_1_18_wf : GatherDims.WF S80000x8 S8000000x1 S8000000x8 [1] [0] [] [0] [] 1 ![1, 8]
  scatter_S80000x8_S8000000x1_S8000000x8_1_0_0_1_wf : ScatterDims.WF S80000x8 S8000000x1 S8000000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x15625.size a ≤ S512x15625.size a
  hwx0_0 : ∀ i : grid0.Coords, EltTy.bits .f32 = 32 ∨ (Rect.block (s := S512x15625) S64x15625.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x15625.size a ≤ S512x15625.size a
  hwx0_1 : ∀ i : grid0.Coords, EltTy.bits .f32 = 32 ∨ (Rect.block (s := S512x15625) S64x15625.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x15625.size a ≤ S512x15625.size a
  hwx0_2 : ∀ i : grid0.Coords, EltTy.bits .f32 = 32 ∨ (Rect.block (s := S512x15625) S64x15625.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x15625.size a ≤ S512x15625.size a
  hwx0_3 : ∀ i : grid0.Coords, EltTy.bits .f32 = 32 ∨ (Rect.block (s := S512x15625) S64x15625.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x16000.size a ≤ S8x80000.size a
  hwx1_0 : ∀ i : grid1.Coords, EltTy.bits .f32 = 32 ∨ (Rect.block (s := S8x80000) S8x16000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16000.size a ≤ S1x80000.size a
  hwx1_1 : ∀ i : grid1.Coords, EltTy.bits .f32 = 32 ∨ (Rect.block (s := S1x80000) S1x16000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16000.size a ≤ S1x80000.size a
  hwx1_2 : ∀ i : grid1.Coords, EltTy.bits .f32 = 32 ∨ (Rect.block (s := S1x80000) S1x16000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16000.size a ≤ S1x80000.size a
  hwx1_3 : ∀ i : grid1.Coords, EltTy.bits .f32 = 32 ∨ (Rect.block (s := S1x80000) S1x16000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x16000.size a ≤ S8x80000.size a
  hwx1_4 : ∀ i : grid1.Coords, EltTy.bits .f32 = 32 ∨ (Rect.block (s := S8x80000) S8x16000.size (cc1_transform_4 i) (hinb1_4 i)).WholeWords (EltTy.packing .f32)

variable [Facts₀]

def gather_S80000x8_S8000000x1_S8000000x8_1_0_n_n_0_1_18 : GatherDims S80000x8 S8000000x1 S8000000x8 where
  offsetDims := [1]
  collapsedSliceDims := [0]
  operandBatchingDims := []
  startIndicesBatchingDims := []
  startIndexMap := [0]
  indexVectorDim := 1
  sliceSizes := ![1, 8]
  wf := gather_S80000x8_S8000000x1_S8000000x8_1_0_n_n_0_1_18_wf
def scatter_S80000x8_S8000000x1_S8000000x8_1_0_0_1 : ScatterDims S80000x8 S8000000x1 S8000000x8 where
  updateWindowDims := [1]
  insertedWindowDims := [0]
  scatterDimsToOperandDims := [0]
  indexVectorDim := 1
  wf := scatter_S80000x8_S8000000x1_S8000000x8_1_0_0_1_wf

abbrev win0_0 : Pipeline.Window sig grid0 :=
  Pipeline.Window.ofSpec (Memref.whole main_v0) S64x15625.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x15625.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x15625.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x15625.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S8x16000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x16000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x16000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x16000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S8x16000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x80000x1 : Shape := ⟨3, ![8, 80000, 1]⟩
abbrev S8000000 : Shape := ⟨1, ![8000000]⟩
abbrev S80000 : Shape := ⟨1, ![80000]⟩
abbrev S8x80000 : Shape := ⟨2, ![8, 80000]⟩
abbrev S80000x8 : Shape := ⟨2, ![80000, 8]⟩
abbrev S_ : Shape := ⟨0, ![]⟩
abbrev S8000000x1 : Shape := ⟨2, ![8000000, 1]⟩
abbrev S8000000x8 : Shape := ⟨2, ![8000000, 8]⟩
abbrev S1x80000x1 : Shape := ⟨3, ![1, 80000, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x80000x1, .f32⟩
  | .hbm, ⟨1, _⟩ => ⟨S8000000, .f32⟩
  | .hbm, ⟨2, _⟩ => ⟨S8000000, .f32⟩
  | .hbm, ⟨3, _⟩ => ⟨S80000, .f32⟩
  | .hbm, ⟨4, _⟩ => ⟨S80000, .f32⟩
  | .hbm, ⟨5, _⟩ => ⟨S8000000, .f32⟩
  | .hbm, ⟨6, _⟩ => ⟨S80000, .f32⟩
  | .hbm, ⟨7, _⟩ => ⟨S8000000, .i32⟩
  | .hbm, ⟨8, _⟩ => ⟨S8000000, .i32⟩
  | .hbm, ⟨9, _⟩ => ⟨S8000000, .f32⟩
  | .hbm, ⟨10, _⟩ => ⟨S8000000, .f32⟩
  | .hbm, ⟨11, _⟩ => ⟨S8000000, .f32⟩
  | .hbm, ⟨12, _⟩ => ⟨S8x80000, .f32⟩
  | .hbm, ⟨13, _⟩ => ⟨S80000x8, .f32⟩
  | .hbm, ⟨14, _⟩ => ⟨S_, .i32⟩
  | .hbm, ⟨15, _⟩ => ⟨S8000000, .i32⟩
  | .hbm, ⟨16, _⟩ => ⟨S8000000, .i1⟩
  | .hbm, ⟨17, _⟩ => ⟨S_, .i32⟩
  | .hbm, ⟨18, _⟩ => ⟨S8000000, .i32⟩
  | .hbm, ⟨19, _⟩ => ⟨S8000000, .i32⟩
  | .hbm, ⟨20, _⟩ => ⟨S8000000, .i32⟩
  | .hbm, ⟨21, _⟩ => ⟨S8000000x1, .i32⟩
  | .hbm, ⟨22, _⟩ => ⟨S8000000x8, .f32⟩
  | .hbm, ⟨23, _⟩ => ⟨S8000000x1, .f32⟩
  | .hbm, ⟨24, _⟩ => ⟨S8000000x8, .f32⟩
  | .hbm, ⟨25, _⟩ => ⟨S8000000x8, .f32⟩
  | .hbm, ⟨26, _⟩ => ⟨S_, .f32⟩
  | .hbm, ⟨27, _⟩ => ⟨S80000x8, .f32⟩
  | .hbm, ⟨28, _⟩ => ⟨S8000000x1, .i32⟩
  | .hbm, ⟨29, _⟩ => ⟨S80000x8, .f32⟩
  | .hbm, ⟨30, _⟩ => ⟨S8x80000, .f32⟩
  | .hbm, ⟨31, _⟩ => ⟨S8x80000x1, .f32⟩
  | .hbm, ⟨32, _⟩ => ⟨S80000, .f32⟩
  | .hbm, ⟨33, _⟩ => ⟨S80000, .f32⟩
  | .hbm, ⟨34, _⟩ => ⟨S80000, .f32⟩
  | .hbm, ⟨35, _⟩ => ⟨S1x80000x1, .f32⟩
  | .hbm, ⟨36, _⟩ => ⟨S8x80000x1, .f32⟩
  | .hbm, ⟨37, _⟩ => ⟨S8x80000x1, .f32⟩
  | .hbm, ⟨38, _⟩ => ⟨S_, .f32⟩
  | .hbm, ⟨39, _⟩ => ⟨S_, .f32⟩
  | .hbm, ⟨40, _⟩ => ⟨S_, .f32⟩
  | _, _ => ⟨S8x80000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_cst_2 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  shapeCasts_S8x80000x1_S8x80000 : S8x80000x1.ShapeCasts S8x80000
  transposes_S8x80000_S80000x8_1_0 : S8x80000.Transposes [1, 0] S80000x8
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S8000000x1_S8000000x8_0_1 : S8000000x1.BroadcastsInDim S8000000x8 (![0, 1] : Fin 2 → Fin S8000000x8.rank)
  bcast_S_S80000x8 : S_.BroadcastsInDim S80000x8 (![] : Fin 0 → Fin S80000x8.rank)
  transposes_S80000x8_S8x80000_1_0 : S80000x8.Transposes [1, 0] S8x80000
  bcast_S8x80000_S8x80000x1_0_1 : S8x80000.BroadcastsInDim S8x80000x1 (![0, 1] : Fin 2 → Fin S8x80000x1.rank)
  bcast_S80000_S1x80000x1_1 : S80000.BroadcastsInDim S1x80000x1 (![1] : Fin 1 → Fin S1x80000x1.rank)
  bcast_S1x80000x1_S8x80000x1_0_1_2 : S1x80000x1.BroadcastsInDim S8x80000x1 (![0, 1, 2] : Fin 3 → Fin S8x80000x1.rank)
  gather_S80000x8_S8000000x1_S8000000x8_1_0_n_n_0_1_18_wf : GatherDims.WF S80000x8 S8000000x1 S8000000x8 [1] [0] [] [0] [] 1 ![1, 8]
  scatter_S80000x8_S8000000x1_S8000000x8_1_0_0_1_wf : ScatterDims.WF S80000x8 S8000000x1 S8000000x8 [1] [0] [0] 1

variable [Facts₀]

def gather_S80000x8_S8000000x1_S8000000x8_1_0_n_n_0_1_18 : GatherDims S80000x8 S8000000x1 S8000000x8 where
  offsetDims := [1]
  collapsedSliceDims := [0]
  operandBatchingDims := []
  startIndicesBatchingDims := []
  startIndexMap := [0]
  indexVectorDim := 1
  sliceSizes := ![1, 8]
  wf := gather_S80000x8_S8000000x1_S8000000x8_1_0_n_n_0_1_18_wf
def scatter_S80000x8_S8000000x1_S8000000x8_1_0_0_1 : ScatterDims S80000x8 S8000000x1 S8000000x8 where
  updateWindowDims := [1]
  insertedWindowDims := [0]
  scatterDimsToOperandDims := [0]
  indexVectorDim := 1
  wf := scatter_S80000x8_S8000000x1_S8000000x8_1_0_0_1_wf

class Facts : Prop extends Facts₀ where

variable [Facts]
-- ==== Proof.KernelRun.lean ====
/-
  The idealized kernel program's run with its two RESULT arrays kept in the post.

  @main is five segments: three stretches of host operations around two pipelined regions.  After the last
  segment every unscoped buffer of a core holds the fold of those segments over the launch memory (`Gen.W5`):
  a host stretch rewrites the buffers its operations write, a region leaves each of its arrays at what its
  write-backs fold to and every other buffer as entered.  The frame claim reads only the nine argument arrays
  off that last state; here the same run is read at the two result buffers as well, so that a value proof can
  open `Gen.W5` at them.
-/
import proofs.«139313_j20074677142320_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the two results end at the last boundary's
    contents `Gen.W5` and the nine arguments as launched. -/
theorem run : θ_run defs (onTc (τ := τ) (main (F := F))) ⟨m, fun _ => 0, ρ⟩ (fun r => ∀ c : Dev nD,
      r.2.mem ((c.tc : Thread nD τ).loc main_v27) = W5 m ρ c (Proc.devRef .tc main_v27)
      ∧ r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v27 (by decide)),
       h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Results

end
-- ==== Proof.ReparamRegion.lean ====
/-
  The first pipelined call, at any contents `V` of the core's buffers on entry: its output array as ONE function of
  its three input arrays.

  The call walks the [512, 15625] arrays in eight blocks of 64 whole rows; at point `t` every window — the three
  inputs and the output — sits on rows 64·t … 64·t + 63.  The body stores, over the whole block,
  ε · exp(λ) + μ of the three loaded blocks, element by element.  So what point `t` writes back is block `t` of the
  array  i ↦ ε i · exp(λ i) + μ i,  and since the eight blocks tile the 512 rows the output array ends as that
  function.
-/
import proofs.«139313_j20074677142320_2_alg».proof.Proof.Gen.KernelIdeal.Frame
import Idealize.ShloMosaic.Lib.Pipeline.Value

set_option maxRecDepth 16384

noncomputable section

namespace Cert.KernelIdeal.Reparam

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- ε · exp(λ) + μ, element by element, over the [512, 15625] layout. -/
abbrev reparam (eps lv mu : S512x15625.Idx → Elt F .f32) : S512x15625.Idx → Elt F .f32 :=
  fun i => FloatOps.addf (FloatOps.mulf (eps i) (FloatOps.exp (lv i))) (mu i)

/-- The body's stored value is that expression of its three loaded blocks (the casts to the same shape are the
    identity). -/
theorem payload_eq (x0 x1 x2 : Vec F S64x15625 .f32) :
    k0_pay1 x0 x1 x2 = fun j => FloatOps.addf (FloatOps.mulf (x0 j) (FloatOps.exp (x1 j))) (x2 j) := by
  show addf (mulf (shapeCast S64x15625 x0 shapeCasts_S64x15625_S64x15625) (exp (shapeCast S64x15625 x1 shapeCasts_S64x15625_S64x15625)))
      (shapeCast S64x15625 x2 shapeCasts_S64x15625_S64x15625) = _
  rw [shapeCast_self, shapeCast_self, shapeCast_self]
  rfl

/-- All four windows sit on the same block at every point: block row `t` (at most 7), block column 0. -/
theorem index_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 7 ∧ win0_3.index t (1 : Fin 2) = 0 :=
  (by decide +kernel : ∀ t : Fin grid0.N, _)

/-- Every block row is some point's. -/
theorem index_onto : ∀ q : Fin 8, ∃ t : Fin cfg0.N, win0_3.index t = ![q.val, 0] :=
  (by decide +kernel : ∀ q : Fin 8, ∃ t : Fin grid0.N, win0_3.index t = ![q.val, 0])

/-- What point `t` writes back is block `t` of `reparam` of the three input arrays as the call finds them. -/
theorem flushed_eq (c : Dev nD) (t : Fin cfg0.N) :
    (dat0 V c).flushed 3 t = ((cfg0.win 3).blk t).view.read (Elt F) (reparam (V c main_v0) (V c main_v1) (V c main_v2)) := by
  show (cfg0.win 3).cut (grid0.coords t) ((dat0 V c).after 3 t) = _
  rw [after0_3]
  unfold out0_3
  rw [View.canon_unit_zero zero_offsets]
  simp only [View.ld_unit_zero (S := S64x15625) zero_offsets]
  rw [payload_eq]
  obtain ⟨e0, e1, e2, e3, e4, e5, e6, e7⟩ := index_facts t
  funext j
  show FloatOps.addf (FloatOps.mulf (V c main_v0 (((cfg0.win 0).blk t).view.emb j)) (FloatOps.exp (V c main_v1 (((cfg0.win 1).blk t).view.emb j)))) (V c main_v2 (((cfg0.win 2).blk t).view.emb j))
     = FloatOps.addf (FloatOps.mulf (V c main_v0 (((cfg0.win 3).blk t).view.emb j)) (FloatOps.exp (V c main_v1 (((cfg0.win 3).blk t).view.emb j)))) (V c main_v2 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 64 + 1 * (j 0).val = win0_3.index t (0 : Fin 2) * 64 + 1 * (j 0).val; omega
    | ⟨1, _⟩ => show win0_0.index t (1 : Fin 2) * 15625 + 1 * (j 1).val = win0_3.index t (1 : Fin 2) * 15625 + 1 * (j 1).val; omega
  have h1 : ((cfg0.win 1).blk t).view.emb j = ((cfg0.win 3).blk t).view.emb j := by
    funext a; apply Fin.ext
    match a with
    | ⟨0, _⟩ => show win0_1.index t (0 : Fin 2) * 64 + 1 * (j 0).val = win0_3.index t (0 : Fin 2) * 64 + 1 * (j 0).val; omega
    | ⟨1, _⟩ => show win0_1.index t (1 : Fin 2) * 15625 + 1 * (j 1).val = win0_3.index t (1 : Fin 2) * 15625 + 1 * (j 1).val; omega
  have h2 : ((cfg0.win 2).blk t).view.emb j = ((cfg0.win 3).blk t).view.emb j := by
    funext a; apply Fin.ext
    match a with
    | ⟨0, _⟩ => show win0_2.index t (0 : Fin 2) * 64 + 1 * (j 0).val = win0_3.index t (0 : Fin 2) * 64 + 1 * (j 0).val; omega
    | ⟨1, _⟩ => show win0_2.index t (1 : Fin 2) * 15625 + 1 * (j 1).val = win0_3.index t (1 : Fin 2) * 15625 + 1 * (j 1).val; omega
  rw [h0, h1, h2]

/-- An index of the output array is in point `t`'s block iff each coordinate is in the block's range on its axis. -/
theorem mem_blk (t : Fin cfg0.N) (i : S512x15625.Idx) :
    i ∈ ((cfg0.win 3).blk t).view.set ↔ ∀ a : Fin 2, win0_3.index t a * S64x15625.size a ≤ (i a).val ∧ (i a).val < win0_3.index t a * S64x15625.size a + S64x15625.size a := by
  show i ∈ ((View.whole main_v3).slice (win0_3.rect t)).set ↔ _
  rw [View.set_slice_whole, Rect.mem_set_unit]
  exact Iff.rfl

/-- The eight blocks tile the array: row `r` is in the block of the point on block row `r / 64`. -/
theorem cover (i : S512x15625.Idx) :
    ∃ t : Fin cfg0.N, (cfg0.win 3).flush t = true ∧ i ∈ ((cfg0.win 3).blk t).view.set := by
  have hi0 : (i 0).val < 512 := (i 0).isLt
  have hi1 : (i 1).val < 15625 := (i 1).isLt
  obtain ⟨t, ht⟩ := index_onto ⟨(i 0).val / 64, by omega⟩
  have q0 : win0_3.index t (0 : Fin 2) = (i 0).val / 64 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 15625 ≤ (i 1).val ∧ (i 1).val < win0_3.index t (1 : Fin 2) * 15625 + 15625; omega

/-- The output array after the call: ε · exp(λ) + μ of the input arrays as the call finds them. -/
theorem final (c : Dev nD) :
    (dat0 V c).arrAt 3 cfg0.N = reparam (V c main_v0) (V c main_v1) (V c main_v2) :=
  (dat0 V c).arrAt_eq_of_cover 3 (reparam (V c main_v0) (V c main_v1) (V c main_v2)) (fun t _ => flushed_eq V c t) cover

end Cert.KernelIdeal.Reparam

end
-- ==== Proof.BiasRegion.lean ====
/-
  The second pipelined call, at any contents `V` of the core's buffers on entry: its output array as ONE function of
  its four input arrays.

  The call walks the [8, 80000] matrix in five blocks of 16000 whole columns; at point `t` the matrix window and the
  output window sit on columns 16000·t … 16000·t + 15999 of all eight rows, and the three [1, 80000] row vectors on
  the same columns of their one row.  The body forms the row  β = ε · exp(λ) + μ  of the three loaded row blocks,
  repeats it down the eight rows and adds it to the loaded matrix block.  So what point `t` writes back is block `t`
  of the array  (b, s) ↦ y (b, s) + (ε (0, s) · exp(λ (0, s)) + μ (0, s)),  and the five blocks tile the 80000 columns.
-/
import proofs.«139313_j20074677142320_2_alg».proof.Proof.Gen.KernelIdeal.Frame
import Idealize.ShloMosaic.Lib.Pipeline.Value

set_option maxRecDepth 16384

noncomputable section

namespace Cert.KernelIdeal.BiasAdd

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The entry of a [1, 80000] row vector that sits over the matrix entry `i`: row 0, the same column. -/
abbrev rowOf (i : S8x80000.Idx) : S1x80000.Idx := fun a => match a with
  | ⟨0, _⟩ => ⟨0, Nat.one_pos⟩
  | ⟨1, _⟩ => ⟨(i 1).val, (i 1).isLt⟩

/-- The same inside a block: the entry of a [1, 16000] row block over the matrix block's entry `j`. -/
abbrev laneOf (j : S8x16000.Idx) : S1x16000.Idx := fun a => match a with
  | ⟨0, _⟩ => ⟨0, Nat.one_pos⟩
  | ⟨1, _⟩ => ⟨(j 1).val, (j 1).isLt⟩

/-- y + (ε · exp(λ) + μ), the row vector repeated down the rows. -/
abbrev biasAdd (y : S8x80000.Idx → Elt F .f32) (eps lv mu : S1x80000.Idx → Elt F .f32) : S8x80000.Idx → Elt F .f32 :=
  fun i => FloatOps.addf (y i) (FloatOps.addf (FloatOps.mulf (eps (rowOf i)) (FloatOps.exp (lv (rowOf i)))) (mu (rowOf i)))

/-- The body's stored value at an entry of the block: the matrix block's entry plus the row expression at the entry's
    column (the casts to the same shape are the identity; the broadcast down the rows reads row 0). -/
theorem payload_eq (x1 x2 x3 : Vec F S1x16000 .f32) (x0 : Vec F S8x16000 .f32) :
    k1_pay1 x1 x2 x3 x0 = fun j => FloatOps.addf (x0 j)
      (FloatOps.addf (FloatOps.mulf (x1 (laneOf j)) (FloatOps.exp (x2 (laneOf j)))) (x3 (laneOf j))) := by
  funext j
  show FloatOps.addf (shapeCast S8x16000 x0 shapeCasts_S8x16000_S8x16000 j)
      (broadcastTo S8x16000 (addf (mulf (shapeCast S1x16000 x1 shapeCasts_S1x16000_S1x16000) (exp (shapeCast S1x16000 x2 shapeCasts_S1x16000_S1x16000)))
        (shapeCast S1x16000 x3 shapeCasts_S1x16000_S1x16000)) broadcasts_S1x16000_S8x16000 j) = _
  rw [shapeCast_self, shapeCast_self, shapeCast_self, shapeCast_self]
  rw [broadcastTo_apply _ broadcasts_S1x16000_S8x16000 j (laneOf j) (fun a => match a with
    | ⟨0, _⟩ => by show 0 = if (1 : Nat) = 1 then 0 else _; rw [if_pos rfl]
    | ⟨1, _⟩ => by show (j 1).val = if (16000 : Nat) = 1 then 0 else (j 1).val; rw [if_neg (by decide)])]
  rfl

/-- All five windows sit on the same block column at every point: block row 0, block column `t` (at most 4). -/
theorem index_facts : ∀ t : Fin cfg1.N,
    win1_0.index t (0 : Fin 2) = win1_4.index t (0 : Fin 2) ∧ win1_0.index t (1 : Fin 2) = win1_4.index t (1 : Fin 2)
    ∧ win1_1.index t (0 : Fin 2) = 0 ∧ win1_1.index t (1 : Fin 2) = win1_4.index t (1 : Fin 2)
    ∧ win1_2.index t (0 : Fin 2) = 0 ∧ win1_2.index t (1 : Fin 2) = win1_4.index t (1 : Fin 2)
    ∧ win1_3.index t (0 : Fin 2) = 0 ∧ win1_3.index t (1 : Fin 2) = win1_4.index t (1 : Fin 2)
    ∧ win1_4.index t (0 : Fin 2) = 0 ∧ win1_4.index t (1 : Fin 2) ≤ 4 :=
  (by decide +kernel : ∀ t : Fin grid1.N, _)

/-- Every block column is some point's. -/
theorem index_onto : ∀ q : Fin 5, ∃ t : Fin cfg1.N, win1_4.index t = ![0, q.val] :=
  (by decide +kernel : ∀ q : Fin 5, ∃ t : Fin grid1.N, win1_4.index t = ![0, q.val])

/-- What point `t` writes back is block `t` of `biasAdd` of the four input arrays as the call finds them. -/
theorem flushed_eq (c : Dev nD) (t : Fin cfg1.N) :
    (dat1 V c).flushed 4 t = ((cfg1.win 4).blk t).view.read (Elt F)
      (biasAdd (V c main_v22) (V c main_v23) (V c main_v24) (V c main_v25)) := by
  show (cfg1.win 4).cut (grid1.coords t) ((dat1 V c).after 4 t) = _
  rw [after1_4]
  unfold out1_4
  rw [View.canon_unit_zero zero_offsets]
  simp only [View.ld_unit_zero (S := S8x16000) zero_offsets, View.ld_unit_zero (S := S1x16000) zero_offsets]
  rw [payload_eq]
  obtain ⟨e0, e1, e2, e3, e4, e5, e6, e7, e8, e9⟩ := index_facts t
  funext j
  show FloatOps.addf (V c main_v22 (((cfg1.win 0).blk t).view.emb j))
        (FloatOps.addf (FloatOps.mulf (V c main_v23 (((cfg1.win 1).blk t).view.emb (laneOf j)))
          (FloatOps.exp (V c main_v24 (((cfg1.win 2).blk t).view.emb (laneOf j))))) (V c main_v25 (((cfg1.win 3).blk t).view.emb (laneOf j))))
     = FloatOps.addf (V c main_v22 (((cfg1.win 4).blk t).view.emb j))
        (FloatOps.addf (FloatOps.mulf (V c main_v23 (rowOf (((cfg1.win 4).blk t).view.emb j)))
          (FloatOps.exp (V c main_v24 (rowOf (((cfg1.win 4).blk t).view.emb j))))) (V c main_v25 (rowOf (((cfg1.win 4).blk t).view.emb j))))
  have h0 : ((cfg1.win 0).blk t).view.emb j = ((cfg1.win 4).blk t).view.emb j := by
    funext a; apply Fin.ext
    match a with
    | ⟨0, _⟩ => show win1_0.index t (0 : Fin 2) * 8 + 1 * (j 0).val = win1_4.index t (0 : Fin 2) * 8 + 1 * (j 0).val; omega
    | ⟨1, _⟩ => show win1_0.index t (1 : Fin 2) * 16000 + 1 * (j 1).val = win1_4.index t (1 : Fin 2) * 16000 + 1 * (j 1).val; omega
  have h1 : ((cfg1.win 1).blk t).view.emb (laneOf j) = rowOf (((cfg1.win 4).blk t).view.emb j) := by
    funext a; apply Fin.ext
    match a with
    | ⟨0, _⟩ => show win1_1.index t (0 : Fin 2) * 1 + 1 * 0 = 0; omega
    | ⟨1, _⟩ => show win1_1.index t (1 : Fin 2) * 16000 + 1 * (j 1).val = win1_4.index t (1 : Fin 2) * 16000 + 1 * (j 1).val; omega
  have h2 : ((cfg1.win 2).blk t).view.emb (laneOf j) = rowOf (((cfg1.win 4).blk t).view.emb j) := by
    funext a; apply Fin.ext
    match a with
    | ⟨0, _⟩ => show win1_2.index t (0 : Fin 2) * 1 + 1 * 0 = 0; omega
    | ⟨1, _⟩ => show win1_2.index t (1 : Fin 2) * 16000 + 1 * (j 1).val = win1_4.index t (1 : Fin 2) * 16000 + 1 * (j 1).val; omega
  have h3 : ((cfg1.win 3).blk t).view.emb (laneOf j) = rowOf (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 16000 + 1 * (j 1).val = win1_4.index t (1 : Fin 2) * 16000 + 1 * (j 1).val; omega
  rw [h0, h1, h2, h3]

/-- An index of the output array is in point `t`'s block iff each coordinate is in the block's range on its axis. -/
theorem mem_blk (t : Fin cfg1.N) (i : S8x80000.Idx) :
    i ∈ ((cfg1.win 4).blk t).view.set ↔ ∀ a : Fin 2, win1_4.index t a * S8x16000.size a ≤ (i a).val ∧ (i a).val < win1_4.index t a * S8x16000.size a + S8x16000.size a := by
  show i ∈ ((View.whole main_v26).slice (win1_4.rect t)).set ↔ _
  rw [View.set_slice_whole, Rect.mem_set_unit]
  exact Iff.rfl

/-- The five blocks tile the array: column `s` is in the block of the point on block column `s / 16000`. -/
theorem cover (i : S8x80000.Idx) :
    ∃ t : Fin cfg1.N, (cfg1.win 4).flush t = true ∧ i ∈ ((cfg1.win 4).blk t).view.set := by
  have hi0 : (i 0).val < 8 := (i 0).isLt
  have hi1 : (i 1).val < 80000 := (i 1).isLt
  obtain ⟨t, ht⟩ := index_onto ⟨(i 1).val / 16000, by omega⟩
  have q0 : win1_4.index t (0 : Fin 2) = 0 := congrFun ht 0
  have q1 : win1_4.index t (1 : Fin 2) = (i 1).val / 16000 := congrFun ht 1
  refine ⟨t, flush1_4 t, ?_⟩
  rw [mem_blk]
  intro a
  match a with
  | ⟨0, _⟩ => show win1_4.index t (0 : Fin 2) * 8 ≤ (i 0).val ∧ (i 0).val < win1_4.index t (0 : Fin 2) * 8 + 8; omega
  | ⟨1, _⟩ => show win1_4.index t (1 : Fin 2) * 16000 ≤ (i 1).val ∧ (i 1).val < win1_4.index t (1 : Fin 2) * 16000 + 16000; omega

/-- The output array after the call: the matrix plus the row ε · exp(λ) + μ, of the input arrays as the call finds them. -/
theorem final (c : Dev nD) :
    (dat1 V c).arrAt 4 cfg1.N = biasAdd (V c main_v22) (V c main_v23) (V c main_v24) (V c main_v25) :=
  (dat1 V c).arrAt_eq_of_cover 4 (biasAdd (V c main_v22) (V c main_v23) (V c main_v24) (V c main_v25)) (fun t _ => flushed_eq V c t) cover

end Cert.KernelIdeal.BiasAdd

end
-- ==== Proof.Boundaries.lean ====
/-
  The core's buffer contents at the five segment boundaries of the idealized kernel program, read at the buffers on the
  way from the arguments to the two results.

  Stretch 0 lays the three flat weight arrays out as [512, 15625].  The first call leaves ε · exp(λ) + μ of them
  (ReparamRegion).  Stretch 1 flattens that back, and runs the sparse product: the batch matrix transposed, its rows
  gathered at the column indices (a negative index wrapped by 80000), each gathered row scaled by its weight, the scaled
  rows scatter-added at the row indices into a zero [80000, 8] matrix, transposed back; it also lays the three bias
  arrays out as [1, 80000].  The second call adds the bias row (BiasRegion).  Stretch 2 restores the trailing unit axis
  and multiplies the two scalar constants.  The sparse product is kept as ONE function `spmm` of the weights, the
  batch and the two index arrays: nothing here looks inside the gather or the scatter.
-/
import proofs.«139313_j20074677142320_2_alg».proof.Proof.ReparamRegion
import proofs.«139313_j20074677142320_2_alg».proof.Proof.BiasRegion
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo

variable {F : FTy → Type} [FloatOps F]

/-- The sparse product on the host, [8, 80000]: out (b, r) = Σ over the nonzeros e with rows e = r of
    vals e · x (b, cols e, 0), as the operations the program applies (transpose, wrap the negative indices, gather,
    scale, scatter-add into zeros, transpose back). -/
def spmm (vals : (⟨S8000000, .f32⟩ : BufTy).Contents (Elt F)) (x : (⟨S8x80000x1, .f32⟩ : BufTy).Contents (Elt F))
    (rows cols : (⟨S8000000, .i32⟩ : BufTy).Contents (Elt F)) : (⟨S8x80000, .f32⟩ : BufTy).Contents (Elt F) :=
  transpose S8x80000 [1, 0] (Host.scatterAdd scatter_S80000x8_S8000000x1_S8000000x8_1_0_0_1
      (broadcastInDim S80000x8 ![] bcast_S_S80000x8 (constant (F := F) S_ .f32 0x00000000#32))
      (broadcastInDim S8000000x1 ![0] bcast_S8000000_S8000000x1_0 rows)
      (mulf (broadcastInDim S8000000x8 ![0, 1] bcast_S8000000x1_S8000000x8_0_1 (broadcastInDim S8000000x1 ![0] bcast_S8000000_S8000000x1_0 vals))
        (Host.gather gather_S80000x8_S8000000x1_S8000000x8_1_0_n_n_0_1_18
          (transpose S80000x8 [1, 0] (shapeCast _ x shapeCasts_S8x80000x1_S8x80000) transposes_S8x80000_S80000x8_1_0)
          (broadcastInDim S8000000x1 ![0] bcast_S8000000_S8000000x1_0
            (select (cmpi .slt cols (broadcastInDim S8000000 ![] bcast_S_S8000000 (constantI S_ 32 0#32)))
              (addi cols (broadcastInDim S8000000 ![] bcast_S_S8000000 (constantI S_ 32 80000#32))) cols)))))
    transposes_S80000x8_S8x80000_1_0

variable (m : (ℓ : Loc nD τ sig) → Buf (Elt F) ℓ) (ρ : Dev nD → PrngReg)

/-! ## Stretch 0: the three weight arrays as [512, 15625] -/

theorem entry0_eps (c : Dev nD) :
    V1 m ρ c main_v0 = shapeCast _ (m ((c : Thread nD τ).loc main_arg5)) shapeCasts_S8000000_S512x15625 := by
  show StableHlo.after hostOps0 (W0 m ρ c) (Proc.devRef .tc main_v0) = _
  after_results <;> rfl
theorem entry0_lv (c : Dev nD) :
    V1 m ρ c main_v1 = shapeCast _ (m ((c : Thread nD τ).loc main_arg2)) shapeCasts_S8000000_S512x15625 := by
  show StableHlo.after hostOps0 (W0 m ρ c) (Proc.devRef .tc main_v1) = _
  after_results <;> rfl
theorem entry0_mu (c : Dev nD) :
    V1 m ρ c main_v2 = shapeCast _ (m ((c : Thread nD τ).loc main_arg1)) shapeCasts_S8000000_S512x15625 := by
  show StableHlo.after hostOps0 (W0 m ρ c) (Proc.devRef .tc main_v2) = _
  after_results <;> rfl

/-! ## After the first call: its output at ε · exp(λ) + μ, the arguments untouched -/

theorem exit0_values (c : Dev nD) :
    W2 m ρ c (Proc.devRef .tc main_v3) = Reparam.reparam
      (shapeCast _ (m ((c : Thread nD τ).loc main_arg5)) shapeCasts_S8000000_S512x15625)
      (shapeCast _ (m ((c : Thread nD τ).loc main_arg2)) shapeCasts_S8000000_S512x15625)
      (shapeCast _ (m ((c : Thread nD τ).loc main_arg1)) shapeCasts_S8000000_S512x15625) := by
  refine (W2_arr m ρ c 3).trans ((Reparam.final (V1 m ρ) c).trans ?_)
  rw [entry0_eps m ρ c, entry0_lv m ρ c, entry0_mu m ρ c]

theorem exit0_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results <;> rfl
theorem exit0_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results <;> rfl
theorem exit0_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results <;> rfl
theorem exit0_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl
theorem exit0_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl
theorem exit0_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl

/-! ## Stretch 1: the sparse product of the flattened weights, and the bias arrays as [1, 80000] -/

theorem entry1_product (c : Dev nD) :
    V3 m ρ c main_v22 = shapeCast _ (broadcastInDim S8x80000x1 ![0, 1] bcast_S8x80000_S8x80000x1_0_1
      (spmm (shapeCast _ (W2 m ρ c (Proc.devRef .tc main_v3)) shapeCasts_S512x15625_S8000000)
        (W2 m ρ c (Proc.devRef .tc main_arg0)) (W2 m ρ c (Proc.devRef .tc main_arg7)) (W2 m ρ c (Proc.devRef .tc main_arg8))))
      shapeCasts_S8x80000x1_S8x80000 := by
  show StableHlo.after hostOps1 (W2 m ρ c) (Proc.devRef .tc main_v22) = _
  unfold spmm
  after_results_simp <;> rfl
theorem entry1_eps (c : Dev nD) :
    V3 m ρ c main_v23 = shapeCast _ (W2 m ρ c (Proc.devRef .tc main_arg6)) shapeCasts_S80000_S1x80000 := by
  show StableHlo.after hostOps1 (W2 m ρ c) (Proc.devRef .tc main_v23) = _
  after_results_simp <;> rfl
theorem entry1_lv (c : Dev nD) :
    V3 m ρ c main_v24 = shapeCast _ (W2 m ρ c (Proc.devRef .tc main_arg4)) shapeCasts_S80000_S1x80000 := by
  show StableHlo.after hostOps1 (W2 m ρ c) (Proc.devRef .tc main_v24) = _
  after_results_simp <;> rfl
theorem entry1_mu (c : Dev nD) :
    V3 m ρ c main_v25 = shapeCast _ (W2 m ρ c (Proc.devRef .tc main_arg3)) shapeCasts_S80000_S1x80000 := by
  show StableHlo.after hostOps1 (W2 m ρ c) (Proc.devRef .tc main_v25) = _
  after_results_simp <;> rfl

/-! ## After the second call, and stretch 2: the two results -/

/-- The first result as a function of the launch memory's argument arrays. -/
def result0 (a0 : (⟨S8x80000x1, .f32⟩ : BufTy).Contents (Elt F)) (a1 a2 : (⟨S8000000, .f32⟩ : BufTy).Contents (Elt F))
    (a3 a4 : (⟨S80000, .f32⟩ : BufTy).Contents (Elt F)) (a5 : (⟨S8000000, .f32⟩ : BufTy).Contents (Elt F))
    (a6 : (⟨S80000, .f32⟩ : BufTy).Contents (Elt F)) (a7 a8 : (⟨S8000000, .i32⟩ : BufTy).Contents (Elt F)) :
    (⟨S8x80000x1, .f32⟩ : BufTy).Contents (Elt F) :=
  shapeCast _ (BiasAdd.biasAdd
      (shapeCast _ (broadcastInDim S8x80000x1 ![0, 1] bcast_S8x80000_S8x80000x1_0_1
        (spmm (shapeCast _ (Reparam.reparam (shapeCast _ a5 shapeCasts_S8000000_S512x15625) (shapeCast _ a2 shapeCasts_S8000000_S512x15625)
            (shapeCast _ a1 shapeCasts_S8000000_S512x15625)) shapeCasts_S512x15625_S8000000) a0 a7 a8))
        shapeCasts_S8x80000x1_S8x80000)
      (shapeCast _ a6 shapeCasts_S80000_S1x80000) (shapeCast _ a4 shapeCasts_S80000_S1x80000) (shapeCast _ a3 shapeCasts_S80000_S1x80000))
    shapeCasts_S8x80000_S8x80000x1

theorem final_result0 (c : Dev nD) :
    W5 m ρ c (Proc.devRef .tc main_v27) = result0 (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  have h5 : W5 m ρ c (Proc.devRef .tc main_v27) = shapeCast _ (W4 m ρ c (Proc.devRef .tc main_v26)) shapeCasts_S8x80000_S8x80000x1 := by
    show StableHlo.after hostOps2 (W4 m ρ c) (Proc.devRef .tc main_v27) = _
    after_results <;> rfl
  have h4 : W4 m ρ c (Proc.devRef .tc main_v26) = BiasAdd.biasAdd (V3 m ρ c main_v22) (V3 m ρ c main_v23) (V3 m ρ c main_v24) (V3 m ρ c main_v25) :=
    (W4_arr m ρ c 4).trans (BiasAdd.final (V3 m ρ) c)
  rw [h5, h4, entry1_product m ρ c, entry1_eps m ρ c, entry1_lv m ρ c, entry1_mu m ρ c, exit0_values m ρ c,
    exit0_arg0 m ρ c, exit0_arg3 m ρ c, exit0_arg4 m ρ c, exit0_arg6 m ρ c, exit0_arg7 m ρ c, exit0_arg8 m ρ c]
  rfl

theorem final_result1 (c : Dev nD) :
    W5 m ρ c (Proc.devRef .tc main_v28) = mulf (constant (F := F) S_ .f32 0x3F800000#32) (constant (F := F) S_ .f32 0x00000000#32) := by
  show StableHlo.after hostOps2 (W4 m ρ c) (Proc.devRef .tc main_v28) = _
  after_results <;> rfl

end Cert.KernelIdeal.Boundaries

end
-- ==== Proof.Bridge.lean ====
/-
  At the extended reals the idealized kernel's first result and the reference's are ONE function of the nine argument
  arrays.

  Three facts, none of which needs a finite input:
  * the weights.  The kernel lays the flat arrays out as [512, 15625], forms ε · exp(λ) + μ there and flattens the
    result back; a cast and its inverse cancel and the expression is elementwise, so the flat result is
    ε · exp(λ) + μ of the flat arrays — the reference's weights (the vector unit's and the host's exponential are
    the same function of an extended real);
  * the sparse product.  Both programs apply the same transpose / gather / scale / scatter-add / transpose to those
    weights, the batch and the two index arrays: the same function of equal inputs.  The kernel then adds a trailing
    unit axis and casts it away again before its second call, which changes nothing;
  * the bias.  The kernel adds, at (b, s), the entry (0, s) of the [1, 80000] row ε_b · exp(λ_b) + μ_b built from the
    bias arrays cast to [1, 80000], and restores the trailing unit axis; the reference adds the flat vector
    ε_b · exp(λ_b) + μ_b broadcast to [8, 80000, 1].  At (b, s, 0) both read column s.
-/
import proofs.«139313_j20074677142320_2_alg».proof.Proof.Boundaries
import proofs.«139313_j20074677142320_2_alg».proof.Proof.Gen.ReferenceIdeal.Read
import Idealize.ShloMosaic.Lib.Pipeline.Value
import Idealize.ShloMosaic.PureOps.Ideal

set_option maxRecDepth 16384

noncomputable section

namespace Cert.Bridge

open Cert.KernelIdeal Cert.KernelIdeal.Gen Idealize.ShloMosaic

/-- The flattened weights are the reference's: ε · exp(λ) + μ of the flat arrays. -/
theorem values_eq (a1 a2 a5 : Vec Ideal S8000000 .f32) :
    shapeCast S8000000 (Reparam.reparam (F := Ideal) (shapeCast S512x15625 a5 shapeCasts_S8000000_S512x15625)
        (shapeCast S512x15625 a2 shapeCasts_S8000000_S512x15625) (shapeCast S512x15625 a1 shapeCasts_S8000000_S512x15625))
      shapeCasts_S512x15625_S8000000
    = Cert.ReferenceIdeal.Read.val_main_v2 (F := Ideal) a1 a2 a5 := by
  funext i
  show FloatOps.addf (F := Ideal) (φ := .f32) (FloatOps.mulf (F := Ideal) (φ := .f32)
        (shapeCast S8000000 (shapeCast S512x15625 a5 shapeCasts_S8000000_S512x15625) shapeCasts_S512x15625_S8000000 i)
        (FloatOps.exp (F := Ideal) (φ := .f32) (shapeCast S8000000 (shapeCast S512x15625 a2 shapeCasts_S8000000_S512x15625) shapeCasts_S512x15625_S8000000 i)))
      (shapeCast S8000000 (shapeCast S512x15625 a1 shapeCasts_S8000000_S512x15625) shapeCasts_S512x15625_S8000000 i) = _
  rw [shapeCast_shapeCast, shapeCast_shapeCast, shapeCast_shapeCast]
  rfl

set_option maxHeartbeats 400000 in
/-- The sparse product of the reference's weights is the reference's stage: the same operations. -/
theorem spmm_eq (a0 : Vec Ideal S8x80000x1 .f32) (a1 a2 a5 : Vec Ideal S8000000 .f32)
    (a7 a8 : Vec Ideal S8000000 .i32) :
    Boundaries.spmm (F := Ideal) (Cert.ReferenceIdeal.Read.val_main_v2 (F := Ideal) a1 a2 a5) a0 a7 a8
      = Cert.ReferenceIdeal.Read.val_main_v18 (F := Ideal) a0 a1 a2 a5 a7 a8 := rfl

/-- A trailing unit axis added and cast away again: the matrix itself. -/
theorem unit_axis_roundtrip (T : Vec Ideal S8x80000 .f32) :
    shapeCast S8x80000 (broadcastInDim S8x80000x1 ![0, 1] bcast_S8x80000_S8x80000x1_0_1 T) shapeCasts_S8x80000x1_S8x80000 = T := by
  funext k
  let k3 : S8x80000x1.Idx := fun a => match a with
    | ⟨0, _⟩ => ⟨(k 0).val, (k 0).isLt⟩
    | ⟨1, _⟩ => ⟨(k 1).val, (k 1).isLt⟩
    | ⟨2, _⟩ => ⟨0, Nat.one_pos⟩
  refine (shapeCast_apply _ shapeCasts_S8x80000x1_S8x80000 k k3 (by
    rewrite [Shape.rowMajor_val_three, Shape.rowMajor_val_two]
    show ((k 0).val * 80000 + (k 1).val) * 1 + 0 = (k 0).val * 80000 + (k 1).val
    omega)).trans ?_
  exact broadcastInDim_apply _ bcast_S8x80000_S8x80000x1_0_1 T k3 k (fun a => match a with
    | ⟨0, _⟩ => by show (k 0).val = if (8 : Nat) = 1 then 0 else (k 0).val; rw [if_neg (by decide)]
    | ⟨1, _⟩ => by show (k 1).val = if (80000 : Nat) = 1 then 0 else (k 1).val; rw [if_neg (by decide)])

/-- A flat bias array cast to [1, 80000], read at row 0 over the matrix entry under (b, s, 0): the array at s. -/
theorem row_read (a : Vec Ideal S80000 .f32) (i : Cert.ReferenceIdeal.S8x80000x1.Idx) :
    shapeCast S1x80000 a shapeCasts_S80000_S1x80000 (BiasAdd.rowOf (Cert.ReferenceIdeal.Read.idx_main_v19 i))
      = a (Cert.ReferenceIdeal.Read.idx_main_v23 (Cert.ReferenceIdeal.Read.idx_main_v24 i)) :=
  shapeCast_apply a shapeCasts_S80000_S1x80000 _ _ (by
    rewrite [Shape.rowMajor_val_one, Shape.rowMajor_val_two]
    show (i 1).val = 0 * 80000 + (i 1).val
    omega)

/-- The kernel's first result and the reference's, as functions of the argument arrays, are equal. -/
theorem result0_eq (a0 : Vec Ideal S8x80000x1 .f32) (a1 a2 : Vec Ideal S8000000 .f32)
    (a3 a4 : Vec Ideal S80000 .f32) (a5 : Vec Ideal S8000000 .f32)
    (a6 : Vec Ideal S80000 .f32) (a7 a8 : Vec Ideal S8000000 .i32) :
    Boundaries.result0 (F := Ideal) a0 a1 a2 a3 a4 a5 a6 a7 a8
      = Cert.ReferenceIdeal.Read.val_main_v25 (F := Ideal) a0 a1 a2 a3 a4 a5 a6 a7 a8 := by
  unfold Boundaries.result0
  rw [values_eq, spmm_eq, unit_axis_roundtrip]
  funext i
  refine (shapeCast_apply _ shapeCasts_S8x80000_S8x80000x1 i (Cert.ReferenceIdeal.Read.idx_main_v19 i) (by
    rewrite [Shape.rowMajor_val_three, Shape.rowMajor_val_two]
    have h2 : (i 2).val < 1 := (i 2).isLt
    show (i 0).val * 80000 + (i 1).val = ((i 0).val * 80000 + (i 1).val) * 1 + (i 2).val
    omega)).trans ?_
  rw [Cert.ReferenceIdeal.Read.val_main_v25_apply, Cert.ReferenceIdeal.Read.val_main_v19_apply,
    Cert.ReferenceIdeal.Read.val_main_v24_apply, Cert.ReferenceIdeal.Read.val_main_v23_apply]
  show FloatOps.addf (F := Ideal) (φ := .f32) (Cert.ReferenceIdeal.Read.val_main_v18 (F := Ideal) a0 a1 a2 a5 a7 a8 (Cert.ReferenceIdeal.Read.idx_main_v19 i))
      (FloatOps.addf (F := Ideal) (φ := .f32) (FloatOps.mulf (F := Ideal) (φ := .f32)
          (shapeCast S1x80000 a6 shapeCasts_S80000_S1x80000 (BiasAdd.rowOf (Cert.ReferenceIdeal.Read.idx_main_v19 i)))
          (FloatOps.exp (F := Ideal) (φ := .f32) (shapeCast S1x80000 a4 shapeCasts_S80000_S1x80000 (BiasAdd.rowOf (Cert.ReferenceIdeal.Read.idx_main_v19 i)))))
        (shapeCast S1x80000 a3 shapeCasts_S80000_S1x80000 (BiasAdd.rowOf (Cert.ReferenceIdeal.Read.idx_main_v19 i)))) = _
  rw [row_read, row_read, row_read]
  rfl

end Cert.Bridge

end
-- ==== Proof.lean ====
/-
  A Bayesian sparse pooling layer, as two pipelined calls around a sparse product on the host, against the same layer
  written with array operations only.

  Both programs compute, from a batch x : [8, 80000, 1], flat weight arrays μ_w, λ_w, ε_w of 8,000,000 nonzeros with row
  and column indices, and bias arrays μ_b, λ_b, ε_b of length 80000,

      w = ε_w · exp(λ_w) + μ_w,
      out (b, r) = Σ over the nonzeros e with rows e = r of  w e · x (b, cols e, 0),
      result (b, s, 0) = out (b, s) + (ε_b s · exp(λ_b s) + μ_b s),

  and a second scalar result 1 · 0.  The kernel program forms w in a first call over the weights laid out as
  [512, 15625], runs the sparse product on the host with the very operations the reference uses, and adds the bias in
  a second call over [8, 80000] with the bias arrays laid out as [1, 80000].  At the extended reals the two results are
  equal, operation for operation: no law beyond "a cast and its inverse cancel" and "an elementwise expression commutes
  with a relayout" is used, and so no input has to be finite.

  * KernelRun: the kernel program's run with the two result buffers kept in the post.
  * ReparamRegion, BiasRegion: each call's output array as one function of its input arrays (what a point writes back
    is a block of that function; the blocks tile the array).
  * Boundaries: the buffers between the segments, down to the first result as a function `result0` of the arguments.
  * Bridge: `result0` is the reference's last stage.
  The three frames are the generated ones (the reference's is its generated run with the results dropped); the
  idealization rewrote nothing, so its claim is trivial.
-/
import proofs.«139313_j20074677142320_2_alg».proof.Defs
import proofs.«139313_j20074677142320_2_alg».proof.Proof.Gen.Kernel
import proofs.«139313_j20074677142320_2_alg».proof.Proof.Gen.Kernel.Frame
import proofs.«139313_j20074677142320_2_alg».proof.Proof.Gen.KernelIdeal
import proofs.«139313_j20074677142320_2_alg».proof.Proof.Gen.KernelIdeal.Frame
import proofs.«139313_j20074677142320_2_alg».proof.Proof.Gen.ReferenceIdeal
import proofs.«139313_j20074677142320_2_alg».proof.Proof.Gen.Pre_finite_inputs
import proofs.«139313_j20074677142320_2_alg».proof.Proof.Gen.ReferenceIdeal.Run
import proofs.«139313_j20074677142320_2_alg».proof.Proof.Gen.ReferenceIdeal.Read
import proofs.«139313_j20074677142320_2_alg».proof.Proof.KernelRun
import proofs.«139313_j20074677142320_2_alg».proof.Proof.Boundaries
import proofs.«139313_j20074677142320_2_alg».proof.Proof.Bridge
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-! ## The values -/

/-- The idealized kernel program's run: the first result at the reference's last stage of the launch memory's argument
    arrays, the second at the product of the two scalar constants, the arguments as launched. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v27)
          = Cert.ReferenceIdeal.Read.val_main_v25 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_v28)
          = mulf (constant (F := Ideal) Cert.KernelIdeal.S_ .f32 0x3F800000#32) (constant (F := Ideal) Cert.KernelIdeal.S_ .f32 0x00000000#32)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun r h c =>
      ⟨(h c).1.trans ((Cert.KernelIdeal.Boundaries.final_result0 m ρ c).trans (Cert.Bridge.result0_eq _ _ _ _ _ _ _ _ _)),
       (h c).2.1.trans (Cert.KernelIdeal.Boundaries.final_result1 m ρ c),
       (h c).2.2⟩)
    (Cert.KernelIdeal.Results.run (F := Ideal) m ρ)

/-- From memories that agree on the nine arguments the two idealized programs end with equal results: the kernel
    program's are the reference's stages of its own arguments (`kernel_value`), the reference's run ends at the same
    stages of its arguments, and the arguments agree. -/
theorem algebraic : Cert.algebraic_KernelIdeal_ReferenceIdeal := by
  intro m ρ m' ρ' _ hagree
  refine ⟨_, _, kernel_value m ρ, ?_⟩
  refine (θ_run Cert.ReferenceIdeal.defs _ _).mono (fun r h c => ⟨(h c).1.trans ?_, (h c).2.1, (h c).2.2⟩)
    (Cert.ReferenceIdeal.Value.run (F := Ideal) m' ρ')
  obtain ⟨e0, e1, e2, e3, e4, e5, e6, e7, e8⟩ := hagree c
  rw [e0, e1, e2, e3, e4, e5, e6, e7, e8]
  exact Cert.ReferenceIdeal.Read.val_main_v25_eq _ _ _ _ _ _ _ _ _

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
